-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S64x64 : Shape := ⟨2, ![64, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S4096x64 .f32) (main_arg1 : FVec F S4096x4096 .f32) (main_arg2 : FVec F S64x64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S4096x64 : Shape := ⟨2, ![4096, 64]⟩
abbrev S4096x4096 : Shape := ⟨2, ![4096, 4096]⟩
abbrev S64x64 : Shape := ⟨2, ![64, 64]⟩
abbrev S2048x64 : Shape := ⟨2, ![2048, 64]⟩
abbrev S2048x128 : Shape := ⟨2, ![2048, 128]⟩
abbrev S512x4096 : Shape := ⟨2, ![512, 4096]⟩
abbrev S512x64 : Shape := ⟨2, ![512, 64]⟩

abbrev nBuf : Space → Nat
  | .hbm => 7
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S64x64, .f32⟩
  | .hbm, ⟨3, _⟩ => ⟨S2048x64, .f32⟩
  | .hbm, ⟨4, _⟩ => ⟨S2048x64, .f32⟩
  | .hbm, ⟨5, _⟩ => ⟨S2048x128, .f32⟩
  | .hbm, ⟨6, _⟩ => ⟨S4096x64, .f32⟩
  | .local _ .vmem, ⟨0, _⟩ => ⟨S2048x128, .f32⟩
  | .local _ .vmem, ⟨1, _⟩ => ⟨S64x64, .f32⟩
  | .local _ .vmem, ⟨2, _⟩ => ⟨S512x4096, .f32⟩
  | .local _ .vmem, ⟨3, _⟩ => ⟨S512x4096, .f32⟩
  | .local _ .vmem, ⟨4, _⟩ => ⟨S512x64, .f32⟩
  | .local _ .vmem, ⟨5, _⟩ => ⟨S512x64, .f32⟩
  | .local _ .vmem, ⟨6, _⟩ => ⟨S4096x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S4096x64_S2048x64_0_0 : S4096x64.Slices ![0, 0] S2048x64
  slices_S4096x64_S2048x64_2048_0 : S4096x64.Slices ![2048, 0] S2048x64
  concatenates_S2048x64_S2048x64_S2048x128_d1 : Shape.Concatenates [S2048x64, S2048x64] S2048x128 1
  inb_S64x64_S64x64_0_0 : ∀ a, (![0, 0] : Fin 2 → Nat) a + S64x64.size a ≤ S64x64.size a
  h_S64x64 : 0 < S64x64.numel
  inb_S2048x128_S2048x64_0_0 : ∀ a, (![0, 0] : Fin 2 → Nat) a + S2048x64.size a ≤ S2048x128.size a
  h_S2048x64 : 0 < S2048x64.numel
  shapeCasts_S2048x64_S2048x64 : S2048x64.ShapeCasts S2048x64
  inb_S4096x64_S2048x64_0_0 : ∀ a, (![0, 0] : Fin 2 → Nat) a + S2048x64.size a ≤ S4096x64.size a
  inb_S2048x128_S2048x64_0_64 : ∀ a, (![0, 64] : Fin 2 → Nat) a + S2048x64.size a ≤ S2048x128.size a
  inb_S4096x64_S2048x64_2048_0 : ∀ a, (![2048, 0] : Fin 2 → Nat) a + S2048x64.size a ≤ S4096x64.size a
  inb_S512x4096_S512x4096_0_0 : ∀ a, (![0, 0] : Fin 2 → Nat) a + S512x4096.size a ≤ S512x4096.size a
  h_S512x4096 : 0 < S512x4096.numel
  inb_S4096x64_S4096x64_0_0 : ∀ a, (![0, 0] : Fin 2 → Nat) a + S4096x64.size a ≤ S4096x64.size a
  h_S4096x64 : 0 < S4096x64.numel
  inb_S512x64_S512x64_0_0 : ∀ a, (![0, 0] : Fin 2 → Nat) a + S512x64.size a ≤ S512x64.size a
  h_S512x64 : 0 < S512x64.numel
  dot_S2048x64_S64x64_S2048x64_1_0_0_1_n_n_wf : DotDims.WF S2048x64 S64x64 S2048x64 [1] [0] [0] [1] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S2048x128.size a
  hwx0_0 : ∀ i : grid0.Coords, EltTy.bits .f32 = 32 ∨ (Rect.block (s := S2048x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S4096x64.size a
  hwx0_3 : ∀ i : grid0.Coords, EltTy.bits .f32 = 32 ∨ (Rect.block (s := S4096x64) S512x64.size (cc0_transform_3 i) (hinb0_3 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_call0_v2) S2048x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x64 : Shape := ⟨2, ![4096, 64]⟩
abbrev S4096x4096 : Shape := ⟨2, ![4096, 4096]⟩
abbrev S64x64 : Shape := ⟨2, ![64, 64]⟩

abbrev nBuf : Space → Nat
  | .hbm => 5
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S64x64, .f32⟩
  | .hbm, ⟨3, _⟩ => ⟨S4096x64, .f32⟩
  | .hbm, ⟨4, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x64_S64x64_S4096x64_1_0_0_1_n_n_wf : DotDims.WF S4096x64 S64x64 S4096x64 [1] [0] [0] [1] [] []
  dot_S4096x4096_S4096x64_S4096x64_1_0_0_1_n_n_wf : DotDims.WF S4096x4096 S4096x64 S4096x64 [1] [0] [0] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.Spec.lean ====
/-
  The function both programs compute, index by index, on the extended reals.

  With feat : [4096, 64], w : [64, 64] and adj : [4096, 4096], the projected features are
  x[k, j] = ∑ l, feat[k, l] · w[l, j], and the aggregated embedding is
  emb[r, j] = ∑ k, adj[r, k] · x[k, j].  The sums are taken in this nesting on both sides, so no
  law of the extended reals beyond reading each product-sum at an index is needed, and finiteness
  of the inputs is never used.
-/
import Idealize.ShloMosaic.PureOps.Ideal
import Idealize.ShloMosaic.Lib.ValueIdx

noncomputable section

open scoped BigOperators

namespace Cert.Spec

open Idealize.ShloMosaic Idealize.ShloMosaic.ValueIdx

/-- The projection: row `k` of the features against column `j` of the weights. -/
def proj (feat : (⟨2, ![4096, 64]⟩ : Shape).Idx → EReal) (w : (⟨2, ![64, 64]⟩ : Shape).Idx → EReal) :
    (⟨2, ![4096, 64]⟩ : Shape).Idx → EReal :=
  fun i => ∑ l : Fin 64, feat (ix2 (i 0) l) * w (ix2 l (i 1))

/-- The aggregation: row `r` of the adjacency matrix against column `j` of an array `x`. -/
def agg (adj : (⟨2, ![4096, 4096]⟩ : Shape).Idx → EReal) (x : (⟨2, ![4096, 64]⟩ : Shape).Idx → EReal) :
    (⟨2, ![4096, 64]⟩ : Shape).Idx → EReal :=
  fun i => ∑ k : Fin 4096, adj (ix2 (i 0) k) * x (ix2 k (i 1))

/-- The embedding `adj · (feat · w)`. -/
def emb (feat : (⟨2, ![4096, 64]⟩ : Shape).Idx → EReal) (adj : (⟨2, ![4096, 4096]⟩ : Shape).Idx → EReal)
    (w : (⟨2, ![64, 64]⟩ : Shape).Idx → EReal) : (⟨2, ![4096, 64]⟩ : Shape).Idx → EReal :=
  agg adj (proj feat w)

end Cert.Spec

end
-- ==== Proof.Widen.lean ====
/-
  The widened features.

  Before the launch the host lays the 4096 feature rows out as 2048 rows of 128 columns: row p holds
  feature row p in columns 0–63 and feature row 2048 + p in columns 64–127 (the top half and the
  bottom half of the array, side by side). Both halves are read back here at an index.
-/
import proofs.«115947_g35287451304912_cont_sun_m_1242_27_alg».proof.Proof.Gen.KernelIdeal
import Idealize.ShloMosaic.Lib.Pipeline.Value
import Idealize.ShloMosaic.Lib.ValueIdx

noncomputable section

namespace Cert.KernelIdeal.Widen

open Cert.KernelIdeal Cert.KernelIdeal.Gen Idealize.ShloMosaic Idealize.ShloMosaic.ValueIdx

variable {α : Type}

/-- The two halves of the rows, side by side. -/
def widen (feat : S4096x64.Idx → α) : S2048x128.Idx → α :=
  concatenate S2048x128 1
    [⟨S2048x64, extractStridedSlice S2048x64 ![0, 0] feat slices_S4096x64_S2048x64_0_0⟩,
     ⟨S2048x64, extractStridedSlice S2048x64 ![2048, 0] feat slices_S4096x64_S2048x64_2048_0⟩]
    concatenates_S2048x64_S2048x64_S2048x128_d1

/-- The top half's row p, column l. -/
theorem slice_top (feat : S4096x64.Idx → α) (p : Fin 2048) (l : Fin 64) :
    extractStridedSlice S2048x64 ![0, 0] feat slices_S4096x64_S2048x64_0_0 (ix2 p l)
      = feat (ix2 (⟨p.val, by omega⟩ : Fin 4096) l) :=
  extractStridedSlice_apply ![0, 0] feat slices_S4096x64_S2048x64_0_0 (ix2 p l) (ix2 (⟨p.val, by omega⟩ : Fin 4096) l)
    (fun a => by
      match a with
      | ⟨0, _⟩ => show p.val = 0 + p.val; omega
      | ⟨1, _⟩ => show l.val = 0 + l.val; omega)

/-- The bottom half's row p, column l is feature row 2048 + p. -/
theorem slice_bottom (feat : S4096x64.Idx → α) (p : Fin 2048) (l : Fin 64) :
    extractStridedSlice S2048x64 ![2048, 0] feat slices_S4096x64_S2048x64_2048_0 (ix2 p l)
      = feat (ix2 (⟨2048 + p.val, by omega⟩ : Fin 4096) l) :=
  extractStridedSlice_apply ![2048, 0] feat slices_S4096x64_S2048x64_2048_0 (ix2 p l) (ix2 (⟨2048 + p.val, by omega⟩ : Fin 4096) l)
    (fun a => by
      match a with
      | ⟨0, _⟩ => show 2048 + p.val = 2048 + p.val; rfl
      | ⟨1, _⟩ => show l.val = 0 + l.val; omega)

/-- Columns 0–63 of the widened array hold the top half. -/
theorem widen_left (feat : S4096x64.Idx → α) (p : Fin 2048) (l : Fin 64) :
    widen feat (ix2 p (⟨l.val, by omega⟩ : Fin 128)) = feat (ix2 (⟨p.val, by omega⟩ : Fin 4096) l) := by
  unfold widen
  refine (concatenate_pair_apply_left (1 : Fin S2048x128.rank) _ _ concatenates_S2048x64_S2048x64_S2048x128_d1
    (ix2 p (⟨l.val, by omega⟩ : Fin 128)) rfl (ix2 p l) (fun b => by
      match b with
      | ⟨0, _⟩ => rfl
      | ⟨1, _⟩ => rfl)).trans ?_
  exact slice_top feat p l

/-- Columns 64–127 of the widened array hold the bottom half. -/
theorem widen_right (feat : S4096x64.Idx → α) (p : Fin 2048) (l : Fin 64) :
    widen feat (ix2 p (⟨64 + l.val, by omega⟩ : Fin 128)) = feat (ix2 (⟨2048 + p.val, by omega⟩ : Fin 4096) l) := by
  unfold widen
  refine (concatenate_pair_apply_right (1 : Fin S2048x128.rank) _ _ concatenates_S2048x64_S2048x64_S2048x128_d1
    (ix2 p (⟨64 + l.val, by omega⟩ : Fin 128)) rfl rfl (ix2 p l) (fun b hb => by
      match b with
      | ⟨0, _⟩ => rfl
      | ⟨1, _⟩ => exact absurd rfl hb) (by show l.val + 64 = 64 + l.val; omega)).trans ?_
  exact slice_bottom feat p l

end Cert.KernelIdeal.Widen

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.Scratch.lean ====
/-
  The projected features the first grid point leaves in the carried buffer.

  At the first point the body multiplies the left 64 columns of the widened features by the weights
  and stores the 2048 result rows as rows 0–2047, then does the same with the right 64 columns and
  stores rows 2048–4095. Row k of the buffer is therefore feature row k times the weights, for every
  k: the buffer holds the projection of the specification. Each product is a plain matrix product
  into the zero accumulator, read at an index as the sum over the shared coordinate.
-/
import proofs.«115947_g35287451304912_cont_sun_m_1242_27_alg».proof.Proof.Gen.KernelIdeal.Skeleton
import proofs.«115947_g35287451304912_cont_sun_m_1242_27_alg».proof.Proof.Spec
import proofs.«115947_g35287451304912_cont_sun_m_1242_27_alg».proof.Proof.Widen
import proofs.«115947_g35287451304912_cont_sun_m_1242_27_alg».proof.Proof.LibPlainDot
import Idealize.ShloMosaic.Lib.Pipeline.Value
import Idealize.ShloMosaic.Lib.Ring
import Idealize.ShloMosaic.Lib.Tactic

noncomputable section

open scoped BigOperators

namespace Cert.KernelIdeal.Scratch

open Cert.KernelIdeal Cert.KernelIdeal.Gen Cert.KernelIdeal.Widen Idealize.ShloMosaic Idealize.ShloMosaic.ValueIdx

/-! ## The rectangles of the body's partial loads and stores -/

/-- Columns 0–63 of the widened features. -/
abbrev leftCols : Rect S2048x128 := Rect.unit (s := S2048x128) ![0, 0] S2048x64.size inb_S2048x128_S2048x64_0_0
/-- Columns 64–127 of the widened features. -/
abbrev rightCols : Rect S2048x128 := Rect.unit (s := S2048x128) ![0, 64] S2048x64.size inb_S2048x128_S2048x64_0_64
/-- Rows 0–2047 of the carried buffer. -/
abbrev topRows : Rect S4096x64 := Rect.unit (s := S4096x64) ![0, 0] S2048x64.size inb_S4096x64_S2048x64_0_0
/-- Rows 2048–4095 of the carried buffer. -/
abbrev bottomRows : Rect S4096x64 := Rect.unit (s := S4096x64) ![2048, 0] S2048x64.size inb_S4096x64_S2048x64_2048_0

section AnyValues
variable {F : FTy → Type} [FloatOps F]

/-- What the two stores of the first point leave in the carried buffer, the later store first. -/
def scratchOf (x0 : Vec F S2048x128 .f32) (x1 : Vec F S64x64 .f32) : Vec F S4096x64 .f32 :=
  View.canon
    [⟨bottomRows, k0_pay2 x1 (View.ld x0 rightCols)⟩,
     ⟨topRows, k0_pay1 x1 (View.ld x0 leftCols)⟩]

end AnyValues

/-! ## The three products read at an index -/

/-- The product stored into the top rows: entry (p, q) is ∑ l, v[p, l] · w[l, q]. -/
theorem pay_top (w : Vec Ideal S64x64 .f32) (v : Vec Ideal S2048x64 .f32) (p : Fin 2048) (q : Fin 64) :
    k0_pay1 (F := Ideal) w v (ix2 p q) = ∑ l : Fin 64, v (ix2 p l) * w (ix2 l q) := by
  unfold k0_pay1
  simp only [shapeCast_self]
  exact PlainDot.matmul_zero_apply 2048 64 64 none v w p q

/-- The product stored into the bottom rows: the same function of its operands. -/
theorem pay_bottom (w : Vec Ideal S64x64 .f32) (v : Vec Ideal S2048x64 .f32) (p : Fin 2048) (q : Fin 64) :
    k0_pay2 (F := Ideal) w v (ix2 p q) = ∑ l : Fin 64, v (ix2 p l) * w (ix2 l q) := by
  unfold k0_pay2
  simp only [shapeCast_self]
  exact PlainDot.matmul_zero_apply 2048 64 64 none v w p q

/-- The product every point stores into its output block: entry (p, q) is ∑ k, a[p, k] · x[k, q]. -/
theorem pay_out (a : Vec Ideal S512x4096 .f32) (x : Vec Ideal S4096x64 .f32) (p : Fin 512) (q : Fin 64) :
    k0_pay3 (F := Ideal) a x (ix2 p q) = ∑ k : Fin 4096, a (ix2 p k) * x (ix2 k q) := by
  unfold k0_pay3
  exact PlainDot.matmul_zero_apply 512 4096 64 none a x p q

/-! ## The carried buffer is the projection -/

/-- Where entry (a, l) of the left columns sits in the widened array. -/
theorem leftCols_idx (a : Fin 2048) (l : Fin 64) : leftCols.idx (ix2 a l) = ix2 a (⟨l.val, by omega⟩ : Fin 128) :=
  funext fun d => Fin.ext (by
    match d with
    | ⟨0, _⟩ => show 0 + 1 * a.val = a.val; omega
    | ⟨1, _⟩ => show 0 + 1 * l.val = l.val; omega)

/-- Where entry (a, l) of the right columns sits in the widened array. -/
theorem rightCols_idx (a : Fin 2048) (l : Fin 64) : rightCols.idx (ix2 a l) = ix2 a (⟨64 + l.val, by omega⟩ : Fin 128) :=
  funext fun d => Fin.ext (by
    match d with
    | ⟨0, _⟩ => show 0 + 1 * a.val = a.val; omega
    | ⟨1, _⟩ => show 64 + 1 * l.val = 64 + l.val; omega)

/-- Where entry (a, b) of the top rows sits in the carried buffer. -/
theorem topRows_emb (a : Fin 2048) (b : Fin 64) : topRows.emb (ix2 a b) = ix2 (⟨a.val, by omega⟩ : Fin 4096) b :=
  funext fun d => Fin.ext (by
    match d with
    | ⟨0, _⟩ => show 0 + 1 * a.val = a.val; omega
    | ⟨1, _⟩ => show 0 + 1 * b.val = b.val; omega)

/-- Where entry (a, b) of the bottom rows sits in the carried buffer. -/
theorem bottomRows_emb (a : Fin 2048) (b : Fin 64) : bottomRows.emb (ix2 a b) = ix2 (⟨2048 + a.val, by omega⟩ : Fin 4096) b :=
  funext fun d => Fin.ext (by
    match d with
    | ⟨0, _⟩ => show 2048 + 1 * a.val = 2048 + a.val; omega
    | ⟨1, _⟩ => show 0 + 1 * b.val = b.val; omega)

/-- The store into the top rows writes the projection's rows 0–2047. -/
theorem top_piece (feat : S4096x64.Idx → EReal) (w : S64x64.Idx → EReal) (a : Fin 2048) (b : Fin 64) :
    k0_pay1 (F := Ideal) w (View.ld (widen feat) leftCols) (ix2 a b) = Cert.Spec.proj feat w (topRows.emb (ix2 a b)) := by
  rw [topRows_emb, pay_top]
  show _ = ∑ l : Fin 64, feat (ix2 (⟨a.val, by omega⟩ : Fin 4096) l) * w (ix2 l b)
  refine Finset.sum_congr rfl fun l _ => ?_
  show widen feat (leftCols.idx (ix2 a l)) * _ = _
  rw [leftCols_idx, widen_left]

/-- The store into the bottom rows writes the projection's rows 2048–4095. -/
theorem bottom_piece (feat : S4096x64.Idx → EReal) (w : S64x64.Idx → EReal) (a : Fin 2048) (b : Fin 64) :
    k0_pay2 (F := Ideal) w (View.ld (widen feat) rightCols) (ix2 a b) = Cert.Spec.proj feat w (bottomRows.emb (ix2 a b)) := by
  rw [bottomRows_emb, pay_bottom]
  show _ = ∑ l : Fin 64, feat (ix2 (⟨2048 + a.val, by omega⟩ : Fin 4096) l) * w (ix2 l b)
  refine Finset.sum_congr rfl fun l _ => ?_
  show widen feat (rightCols.idx (ix2 a l)) * _ = _
  rw [rightCols_idx, widen_right]

/-- After the first point the carried buffer holds feat · w. -/
theorem scratch_eq_proj (feat : S4096x64.Idx → EReal) (w : S64x64.Idx → EReal) :
    scratchOf (F := Ideal) (widen feat) w = Cert.Spec.proj feat w := by
  funext y
  unfold scratchOf
  refine View.canon_apply_of_pieces (Val := Elt Ideal) (S := S4096x64) (e := .f32) (Cert.Spec.proj feat w) _ ?_ y
    (View.cover_of_tiledL (s := S4096x64) _ S2048x64.size (by sl_kernel_rfl) y)
  intro p hp
  rcases List.mem_cons.mp hp with rfl | hp
  · intro x
    obtain ⟨a, b, rfl⟩ : ∃ (a : Fin 2048) (b : Fin 64), x = ix2 a b := ⟨x 0, x 1, eq_ix2 x⟩
    exact bottom_piece feat w a b
  · rcases List.mem_cons.mp hp with rfl | hp
    · intro x
      obtain ⟨a, b, rfl⟩ : ∃ (a : Fin 2048) (b : Fin 64), x = ix2 a b := ⟨x 0, x 1, eq_ix2 x⟩
      exact top_piece feat w a b
    · exact absurd hp List.not_mem_nil

end Cert.KernelIdeal.Scratch

end
-- ==== Proof.Pieces.lean ====
/-
  What the body leaves behind at a grid point, as values.

  The first point's run stores the two halves of the projection into the carried buffer, loads the
  buffer back whole and stores the product of its adjacency block with it; every later point finds the
  buffer as the point before left it and stores the product of its own adjacency block with it. Read
  back, the stores are: the carried buffer after the first point (two partial stores that tile it), and
  the output block of every point (one store that covers it, whose right operand is the carried buffer).
-/
import proofs.«115947_g35287451304912_cont_sun_m_1242_27_alg».proof.Proof.Gen.KernelIdeal.Frame
import proofs.«115947_g35287451304912_cont_sun_m_1242_27_alg».proof.Proof.Scratch
import Idealize.ShloMosaic.Lib.Pipeline.Value
import Idealize.ShloMosaic.Lib.Tactic

noncomputable section

namespace Cert.KernelIdeal.Pieces

open Cert.KernelIdeal Cert.KernelIdeal.Gen Cert.KernelIdeal.Scratch Idealize.ShloMosaic Idealize.ShloMosaic.TcCoe Idealize.SL.Sem

variable {F : FTy → Type} [FloatOps F]

/-- The zero offsets of a whole-buffer access. -/
theorem hz : (![0, 0] : Fin 2 → Nat) = fun _ => 0 := funext fun a => by fin_cases a <;> rfl

/-- A load of a whole buffer after any stores into it reads what the stores left. -/
theorem readCov_whole {Val : EltTy → Type} [∀ e, Nonempty (Val e)] {sg : RefSig} {κ : Kind} {sp : Space} {S : Shape} {e : EltTy}
    (v : View sg κ sp S e) (L : List (View.Piece Val S e)) {off : Fin S.rank → Nat} (h : off = fun _ => 0)
    (inb : ∀ a, off a + S.size a ≤ S.size a) :
    v.readCov L (Rect.unit off S.size inb).toLoadRect = View.canon L := by
  rw [View.readCov_eq_canon']
  exact View.ld_unit_zero h inb (View.canon L)

/-- After the first point the carried buffer holds the two stored halves. -/
theorem carried_first (c : Dev nD) (i : grid0.Coords) (a1 : Memref sig .tc .vmem S2048x128 .f32) (h1 : a1.IsWhole) (a2 : Memref sig .tc .vmem S64x64 .f32) (h2 : a2.IsWhole) (a3 : Memref sig .tc .vmem S512x4096 .f32) (h3 : a3.IsWhole) (a4 : Memref sig .tc .vmem S512x64 .f32) (h4 : a4.IsWhole) (a5 : Memref sig .tc .vmem S4096x64 .f32) (h5 : a5.IsWhole) (hc : cond0_0 i)
    (x0 : Vec F S2048x128 .f32) (x1 : Vec F S64x64 .f32) (x2 : Vec F S512x4096 .f32) :
    sout0_A_0 c i a1 h1 a2 h2 a3 h3 a4 h4 a5 h5 hc x0 x1 x2 = scratchOf x0 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  simp only [View.readAt_eq_ld, h1.read_unread, h2.read_unread, View.ld_unit_zero (S := S64x64) hz]
  rfl

/-- The first point's output block: its adjacency block times the carried buffer it has just filled. -/
theorem out_first (c : Dev nD) (i : grid0.Coords) (a1 : Memref sig .tc .vmem S2048x128 .f32) (h1 : a1.IsWhole) (a2 : Memref sig .tc .vmem S64x64 .f32) (h2 : a2.IsWhole) (a3 : Memref sig .tc .vmem S512x4096 .f32) (h3 : a3.IsWhole) (a4 : Memref sig .tc .vmem S512x64 .f32) (h4 : a4.IsWhole) (a5 : Memref sig .tc .vmem S4096x64 .f32) (h5 : a5.IsWhole) (hc : cond0_0 i)
    (x0 : Vec F S2048x128 .f32) (x1 : Vec F S64x64 .f32) (x2 : Vec F S512x4096 .f32) :
    out0_A_3 c i a1 h1 a2 h2 a3 h3 a4 h4 a5 h5 hc x0 x1 x2 = k0_pay3 x2 (scratchOf x0 x1) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero (S := S512x64) hz, readCov_whole (S := S4096x64) _ _ hz]
  simp only [View.readAt_eq_ld, h1.read_unread, h2.read_unread, h3.read_unread, View.ld_unit_zero (S := S64x64) hz,
    View.ld_unit_zero (S := S512x4096) hz]
  rfl

/-- A later point's output block: its adjacency block times the carried buffer as it found it. -/
theorem out_later (c : Dev nD) (i : grid0.Coords) (a1 : Memref sig .tc .vmem S2048x128 .f32) (h1 : a1.IsWhole) (a2 : Memref sig .tc .vmem S64x64 .f32) (h2 : a2.IsWhole) (a3 : Memref sig .tc .vmem S512x4096 .f32) (h3 : a3.IsWhole) (a4 : Memref sig .tc .vmem S512x64 .f32) (h4 : a4.IsWhole) (a5 : Memref sig .tc .vmem S4096x64 .f32) (h5 : a5.IsWhole) (hc : ¬cond0_0 i)
    (x0 : Vec F S2048x128 .f32) (x1 : Vec F S64x64 .f32) (x2 : Vec F S512x4096 .f32) (xs : Vec F S4096x64 .f32) :
    out0_B_3 c i a1 h1 a2 h2 a3 h3 a4 h4 a5 h5 hc x0 x1 x2 xs = k0_pay3 x2 xs := by
  unfold out0_B_3
  rw [View.read_writes_eq_canon _ _ _ (cover0_B_3 c i a1 h1 a2 h2 a3 h3 a4 h4 a5 h5 hc x0 x1 x2 xs)]
  unfold kernelRun0_B
  dsimp only
  sl_unfold_words
  rw [View.canon_unit_zero (S := S512x64) hz]
  simp only [View.readAt_eq_ld, h3.read_unread, h5.read_unread, View.ld_unit_zero (S := S512x4096) hz,
    View.ld_unit_zero (S := S4096x64) hz]

end Cert.KernelIdeal.Pieces

end
-- ==== Proof.Blocks.lean ====
/-
  What the launch hands the body at each grid point.

  Window 0 is the widened features, whole, at every point; window 1 the weights, whole, at every point;
  window 2 at point t is rows 512·t … 512·t + 511 of the adjacency matrix; the output window at point t
  is rows 512·t … 512·t + 511 of the result. The widened features themselves are what the three host
  operations before the launch make of the feature argument.
-/
import proofs.«115947_g35287451304912_cont_sun_m_1242_27_alg».proof.Proof.Gen.KernelIdeal.Frame
import proofs.«115947_g35287451304912_cont_sun_m_1242_27_alg».proof.Proof.Widen
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Cert.KernelIdeal.Widen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of the four windows at a grid point, decided over the eight points. -/
theorem block_index : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The region finds the widened features in the buffer window 0 stages. -/
theorem V_widened (c : Dev nD) :
    (V m c main_call0_v2 : S2048x128.Idx → Elt F .f32) = widen (m ((c : Thread nD τ).loc main_arg0)) := by
  dsimp only [Gen.V, Gen.hostOps0]
  after_results
  rfl

/-- Window 0's block at any point is the whole widened array. -/
theorem feat_block (c : Dev nD) (t : Fin cfg0.N) (j : S2048x128.Idx) :
    iblk m c 0 t j = V m c main_call0_v2 j := by
  show V m c main_call0_v2 (((cfg0.win 0).blk t).view.emb j) = V m c main_call0_v2 j
  obtain ⟨e0, e1, -⟩ := block_index t
  refine congrArg _ (funext fun a => Fin.ext ?_)
  match a with
  | ⟨0, _⟩ => show win0_0.index t (0 : Fin 2) * 2048 + 1 * (j 0).val = (j 0).val; rw [e0]; omega
  | ⟨1, _⟩ => show win0_0.index t (1 : Fin 2) * 128 + 1 * (j 1).val = (j 1).val; rw [e1]; omega

/-- Window 1's block at any point is the whole weight matrix. -/
theorem weight_block (c : Dev nD) (t : Fin cfg0.N) (j : S64x64.Idx) :
    iblk m c 1 t j = V m c main_arg2 j := by
  show V m c main_arg2 (((cfg0.win 1).blk t).view.emb j) = V m c main_arg2 j
  obtain ⟨-, -, e0, e1, -⟩ := block_index t
  refine congrArg _ (funext fun a => Fin.ext ?_)
  match a with
  | ⟨0, _⟩ => show win0_1.index t (0 : Fin 2) * 64 + 1 * (j 0).val = (j 0).val; rw [e0]; omega
  | ⟨1, _⟩ => show win0_1.index t (1 : Fin 2) * 64 + 1 * (j 1).val = (j 1).val; rw [e1]; omega

/-- Window 2's block at point t, entry (p, k), is the adjacency matrix at (512·t + p, k). -/
theorem adj_block (c : Dev nD) (t : Fin cfg0.N) (p : Fin 512) (k : Fin 4096) :
    iblk m c 2 t (ix2 p k)
      = V m c main_arg1 (ix2 (⟨512 * t.val + p.val, by have := lt_of_lt_of_eq t.isLt (show cfg0.N = 8 from N_0); omega⟩ : Fin 4096) k) := by
  show V m c main_arg1 (((cfg0.win 2).blk t).view.emb (ix2 p k)) = _
  obtain ⟨-, -, -, -, e0, e1, -⟩ := block_index t
  refine congrArg _ (funext fun a => Fin.ext ?_)
  match a with
  | ⟨0, _⟩ => show win0_2.index t (0 : Fin 2) * 512 + 1 * p.val = 512 * t.val + p.val; rw [e0]; omega
  | ⟨1, _⟩ => show win0_2.index t (1 : Fin 2) * 4096 + 1 * k.val = k.val; rw [e1]; omega

/-- The output window's block at point t, entry (p, q), sits in the result at (512·t + p, q). -/
theorem out_block_emb (t : Fin cfg0.N) (p : Fin 512) (q : Fin 64) :
    ((cfg0.win 3).blk t).view.emb (ix2 p q)
      = ix2 (⟨512 * t.val + p.val, by have := lt_of_lt_of_eq t.isLt (show cfg0.N = 8 from N_0); omega⟩ : Fin 4096) q := by
  obtain ⟨-, -, -, -, -, -, e0, e1⟩ := block_index t
  refine funext fun a => Fin.ext ?_
  match a with
  | ⟨0, _⟩ => show win0_3.index t (0 : Fin 2) * 512 + 1 * p.val = 512 * t.val + p.val; rw [e0]; omega
  | ⟨1, _⟩ => show win0_3.index t (1 : Fin 2) * 64 + 1 * q.val = q.val; rw [e1]; omega

end Cert.KernelIdeal.Blocks

end
-- ==== Proof.KernelValue.lean ====
/-
  The kernel's result array is adj · (feat · w).

  The carried buffer holds the projection feat · w from the first grid point on: the first point
  computes it from the widened features and the weights, and no later point stores into it. So at
  every point t the body writes back the product of rows 512·t … 512·t + 511 of the adjacency matrix
  with the projection, which is the same rows of the embedding adj · (feat · w). The eight row blocks
  tile the result, the block of point r / 512 covering row r, so after the run the result array is the
  embedding.
-/
import proofs.«115947_g35287451304912_cont_sun_m_1242_27_alg».proof.Proof.Gen.KernelIdeal.Value
import proofs.«115947_g35287451304912_cont_sun_m_1242_27_alg».proof.Proof.Pieces
import proofs.«115947_g35287451304912_cont_sun_m_1242_27_alg».proof.Proof.Blocks
import proofs.«115947_g35287451304912_cont_sun_m_1242_27_alg».proof.Proof.Spec

noncomputable section

open scoped BigOperators

namespace Cert.KernelIdeal.Result

open Cert.KernelIdeal Cert.KernelIdeal.Gen Cert.KernelIdeal.Widen Cert.KernelIdeal.Scratch Cert.KernelIdeal.Pieces
  Cert.KernelIdeal.Blocks Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The feature argument at launch. -/
abbrev feat (c : Dev nD) : S4096x64.Idx → EReal := m ((c : Thread nD τ).loc main_arg0)
/-- The adjacency argument at launch. -/
abbrev adj (c : Dev nD) : S4096x4096.Idx → EReal := m ((c : Thread nD τ).loc main_arg1)
/-- The weight argument at launch. -/
abbrev wts (c : Dev nD) : S64x64.Idx → EReal := m ((c : Thread nD τ).loc main_arg2)

/-- The embedding of the launch arguments, as contents of the result array. -/
abbrev result (c : Dev nD) : Buf (Elt Ideal) ((c : Thread nD τ).loc main_v0) :=
  Cert.Spec.emb (feat m c) (adj m c) (wts m c)

/-! ## The carried buffer -/

/-- What the first point's two stores make of the blocks it is handed is the projection. -/
theorem first_fill (c : Dev nD) (t : Fin cfg0.N) :
    scratchOf (F := Ideal) (iblk m c 0 t) (iblk m c 1 t) = Cert.Spec.proj (feat m c) (wts m c) := by
  have e0 : (iblk m c 0 t : Vec Ideal S2048x128 .f32) = widen (feat m c) :=
    funext fun j => (feat_block m c t j).trans (congrFun (V_widened m c) j)
  have e1 : (iblk m c 1 t : Vec Ideal S64x64 .f32) = wts m c :=
    funext fun j => (weight_block m c t j).trans (congrFun (V_main_arg2 m c) j)
  rw [e0, e1]
  exact scratch_eq_proj _ _

/-- After every point the carried buffer holds the projection: the first point fills it, the others keep it. -/
theorem carried (c : Dev nD) : ∀ (n : ℕ) (h : n < cfg0.N), (outsAt0 m c n h).2 = Cert.Spec.proj (feat m c) (wts m c)
  | 0, h => by
    rw [outsAt0_A m c ⟨0, h⟩ rfl]
    dsimp only
    refine (carried_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr rfl) (iblk m c 0 ⟨0, h⟩) (iblk m c 1 ⟨0, h⟩) (iblk m c 2 ⟨0, h⟩)).trans ?_
    exact first_fill m c ⟨0, h⟩
  | n + 1, h => by
    have hN : cfg0.N = 8 := N_0
    have hB : ¬(⟨n + 1, h⟩ : Fin cfg0.N).val % 8 = 0 := by dsimp only; omega
    rw [outsAt0_B m c ⟨n + 1, h⟩ hB]
    dsimp only
    unfold sout0_B_0
    exact carried c n _

/-! ## What a point writes back -/

/-- An entry of a point's product: row r of a matrix A that the point's block a reads at row p. -/
theorem out_entry (a : Vec Ideal S512x4096 .f32) (x : Vec Ideal S4096x64 .f32) (A : S4096x4096.Idx → EReal)
    (r : Fin 4096) (p : Fin 512) (q : Fin 64) (ha : ∀ k : Fin 4096, a (ix2 p k) = A (ix2 r k)) :
    k0_pay3 (F := Ideal) a x (ix2 p q) = Cert.Spec.agg A x (ix2 r q) := by
  rw [pay_out]
  show _ = ∑ k : Fin 4096, A (ix2 r k) * x (ix2 k q)
  exact Finset.sum_congr rfl fun k _ => by rw [ha k]

/-- The product of point t's adjacency block with the projection is block t of the embedding. -/
theorem product_block (c : Dev nD) (t : Fin cfg0.N) (x : Vec Ideal S4096x64 .f32)
    (hx : x = Cert.Spec.proj (feat m c) (wts m c)) :
    (cfg0.win 3).cut (grid0.coords t) (k0_pay3 (F := Ideal) (iblk m c 2 t) x)
      = ((cfg0.win 3).blk t).view.read (Elt Ideal) (result m c) := by
  subst hx
  refine funext fun (j : S512x64.Idx) => ?_
  obtain ⟨p, q, rfl⟩ : ∃ (p : Fin 512) (q : Fin 64), j = ix2 p q := ⟨j 0, j 1, eq_ix2 j⟩
  show k0_pay3 (F := Ideal) (iblk m c 2 t) _ (ix2 p q) = result m c (((cfg0.win 3).blk t).view.emb (ix2 p q))
  rw [out_block_emb]
  exact out_entry (iblk m c 2 t) _ (adj m c) _ p q
    (fun k => (adj_block m c t p k).trans (congrFun (V_main_arg1 m c) _))

/-- What point t writes back is block t of the embedding. -/
theorem flushed_eq (c : Dev nD) (t : Fin cfg0.N) :
    (dats m 0 c).flushed 3 t = ((cfg0.win 3).blk t).view.read (Elt Ideal) (result m c) := by
  by_cases h0 : t.val % 8 = 0
  · rw [Value.flushed3_A m c t h0]
    refine (congrArg ((cfg0.win 3).cut (grid0.coords t))
      (out_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t))).trans ?_
    exact product_block m c t _ (first_fill m c t)
  · rw [Value.flushed3_B m c t h0]
    refine (congrArg ((cfg0.win 3).cut (grid0.coords t))
      (out_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
        (outsAt0 m c (t.val - 1) (Nat.lt_of_le_of_lt (Nat.sub_le _ _) t.isLt)).2)).trans ?_
    exact product_block m c t _ (carried m c (t.val - 1) _)

/-! ## The result array after the run -/

/-- An index of the result is in point t's block iff its row is among the block's 512 rows. -/
theorem mem_block (t : Fin cfg0.N) (i : S4096x64.Idx) :
    i ∈ ((cfg0.win 3).blk t).view.set
      ↔ ∀ a : Fin 2, win0_3.index t a * S512x64.size a ≤ (i a).val ∧ (i a).val < win0_3.index t a * S512x64.size a + S512x64.size a := by
  show i ∈ ((View.whole main_v0).slice (win0_3.rect t)).set ↔ _
  rw [View.set_slice_whole, Rect.mem_set_unit]
  exact Iff.rfl

/-- Every row of the result lies in the block of the point r / 512. -/
theorem covered (i : S4096x64.Idx) :
    ∃ t : Fin cfg0.N, (cfg0.win 3).flush t = true ∧ i ∈ ((cfg0.win 3).blk t).view.set := by
  have hi0 : (i 0).val < 4096 := (i 0).isLt
  have hi1 : (i 1).val < 64 := (i 1).isLt
  have hN : cfg0.N = 8 := N_0
  refine ⟨⟨(i 0).val / 512, by rw [hN]; omega⟩, flush0_3 _, ?_⟩
  rw [mem_block]
  obtain ⟨-, -, -, -, -, -, e0, e1⟩ := block_index ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e0]; dsimp only; omega
  | ⟨1, _⟩ =>
    show win0_3.index _ (1 : Fin 2) * 64 ≤ (i 1).val ∧ (i 1).val < win0_3.index _ (1 : Fin 2) * 64 + 64
    rw [e1]; omega

/-- After the run the result array is the embedding. -/
theorem final (c : Dev nD) : (dats m 0 c).arrAt 3 cfg0.N = result m c :=
  (dats m 0 c).arrAt_eq_of_cover 3 (result m c) (fun t _ => flushed_eq m c t) covered

/-- The kernel's run: the result array ends at adj · (feat · w) of the launch arguments, which end unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.RefIsSpec.lean ====
/-
  The reference computes the embedding of the specification.

  Its two product-sums are read at an index: result element (r, j) is the sum over k of
  adj[r, k] times the first product at (k, j), and that is the sum over l of feat[k, l] · w[l, j].
  The operand indices the two reads name are the pairs of coordinates the specification uses.
-/
import proofs.«115947_g35287451304912_cont_sun_m_1242_27_alg».proof.Proof.Gen.ReferenceIdeal.Read
import proofs.«115947_g35287451304912_cont_sun_m_1242_27_alg».proof.Proof.Spec

noncomputable section

open scoped BigOperators

namespace Cert.RefSpec

open Cert.ReferenceIdeal Cert.ReferenceIdeal.Read Idealize.ShloMosaic Idealize.ShloMosaic.ValueIdx

/-- The left operand index of the second product at (r, j), k is (r, k). -/
theorem lidx1 (r : Fin 4096) (j : Fin 64) (k : Fin 4096) : lidx_main_v1 (ix2 r j) k = ix2 r k :=
  funext fun a => Fin.ext (by match a with | ⟨0, _⟩ => rfl | ⟨1, _⟩ => rfl)

/-- The right operand index of the second product at (r, j), k is (k, j). -/
theorem ridx1 (r : Fin 4096) (j : Fin 64) (k : Fin 4096) : ridx_main_v1 (ix2 r j) k = ix2 k j :=
  funext fun a => Fin.ext (by match a with | ⟨0, _⟩ => rfl | ⟨1, _⟩ => rfl)

/-- The left operand index of the first product at (k, j), l is (k, l). -/
theorem lidx0 (k : Fin 4096) (j : Fin 64) (l : Fin 64) : lidx_main_v0 (ix2 k j) l = ix2 k l :=
  funext fun a => Fin.ext (by match a with | ⟨0, _⟩ => rfl | ⟨1, _⟩ => rfl)

/-- The right operand index of the first product at (k, j), l is (l, j). -/
theorem ridx0 (k : Fin 4096) (j : Fin 64) (l : Fin 64) : ridx_main_v0 (ix2 k j) l = ix2 l j :=
  funext fun a => Fin.ext (by match a with | ⟨0, _⟩ => rfl | ⟨1, _⟩ => rfl)

/-- The reference's result, as a function of its three arguments, is `adj · (feat · w)`. -/
theorem ref_eq_emb (x0 : S4096x64.Idx → EReal) (x1 : S4096x4096.Idx → EReal) (x2 : S64x64.Idx → EReal) :
    val_main_v1 (F := Ideal) x0 x1 x2 = Cert.Spec.emb x0 x1 x2 := by
  funext i
  obtain ⟨r, j, rfl⟩ : ∃ (r : Fin 4096) (j : Fin 64), i = ix2 r j := ⟨i 0, i 1, eq_ix2 i⟩
  rw [val_main_v1_apply]
  show _ = ∑ k : Fin 4096, x1 (ix2 r k) * Cert.Spec.proj x0 x2 (ix2 k j)
  refine Finset.sum_congr rfl fun k _ => ?_
  rw [lidx1, ridx1, val_main_v0_apply]
  show _ = x1 (ix2 r k) * ∑ l : Fin 64, x0 (ix2 k l) * x2 (ix2 l j)
  refine congrArg _ (Finset.sum_congr rfl fun l _ => ?_)
  rw [lidx0, ridx0]

end Cert.RefSpec

end
-- ==== Proof.lean ====
/-
  The certificate of a graph-convolution decoder: emb = adj · (feat · w), with feat : [4096, 64],
  w : [64, 64] and a dense adj : [4096, 4096].

  The kernel computes the projection x = feat · w once, at the first of eight grid points, into a
  buffer it keeps across the grid (from a copy of feat laid out 2048 × 128, its two halves side by
  side), and at every point multiplies 512 rows of adj by x and writes them back as 512 rows of the
  result. The reference is the two matrix products in the same nesting. On the extended reals every
  product is the plain sum over the shared coordinate, and both programs' results are
  ∑ k, adj[r, k] · (∑ l, feat[k, l] · w[l, j]) entry by entry: no sum is regrouped, so no algebraic
  law and no finiteness of the inputs is used.

  The idealization rewrote nothing, so the kernel's idealization is its own text read on the extended
  reals. The frames of the two kernel programs are their frame runs; the reference's frame is its run
  with the result dropped.
-/
import proofs.«115947_g35287451304912_cont_sun_m_1242_27_alg».proof.Defs
import proofs.«115947_g35287451304912_cont_sun_m_1242_27_alg».proof.Proof.Gen.Kernel
import proofs.«115947_g35287451304912_cont_sun_m_1242_27_alg».proof.Proof.Gen.Kernel.Skeleton
import proofs.«115947_g35287451304912_cont_sun_m_1242_27_alg».proof.Proof.Gen.Kernel.Launch
import proofs.«115947_g35287451304912_cont_sun_m_1242_27_alg».proof.Proof.Gen.Kernel.Points
import proofs.«115947_g35287451304912_cont_sun_m_1242_27_alg».proof.Proof.Gen.Kernel.Frame
import proofs.«115947_g35287451304912_cont_sun_m_1242_27_alg».proof.Proof.Gen.KernelIdeal
import proofs.«115947_g35287451304912_cont_sun_m_1242_27_alg».proof.Proof.Gen.KernelIdeal.Skeleton
import proofs.«115947_g35287451304912_cont_sun_m_1242_27_alg».proof.Proof.Gen.KernelIdeal.Launch
import proofs.«115947_g35287451304912_cont_sun_m_1242_27_alg».proof.Proof.Gen.KernelIdeal.Points
import proofs.«115947_g35287451304912_cont_sun_m_1242_27_alg».proof.Proof.Gen.KernelIdeal.Frame
import proofs.«115947_g35287451304912_cont_sun_m_1242_27_alg».proof.Proof.Gen.ReferenceIdeal
import proofs.«115947_g35287451304912_cont_sun_m_1242_27_alg».proof.Proof.Gen.Pre_finite_inputs
import proofs.«115947_g35287451304912_cont_sun_m_1242_27_alg».proof.Proof.Gen.KernelIdeal.Value
import proofs.«115947_g35287451304912_cont_sun_m_1242_27_alg».proof.Proof.Gen.ReferenceIdeal.Run
import proofs.«115947_g35287451304912_cont_sun_m_1242_27_alg».proof.Proof.Gen.ReferenceIdeal.Read
import proofs.«115947_g35287451304912_cont_sun_m_1242_27_alg».proof.Proof.KernelValue
import proofs.«115947_g35287451304912_cont_sun_m_1242_27_alg».proof.Proof.RefIsSpec
import Idealize.ShloMosaic.Adequacy
import Idealize.ShloMosaic.Init

noncomputable section

namespace Cert.Proof

open Idealize.ShloMosaic Idealize.SL.Sem

/-- The kernel runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the idealization. -/
theorem preserves : Cert.preserves_Kernel_KernelIdeal := trivial

/-- On the extended reals both programs end with adj · (feat · w) of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.RefSpec.ref_eq_emb, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
